-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_

variable [Facts]

def fn {F : FTy → Type} [FloatOps F] (main_arg0 : FVec F S100000x128 .f32) (main_arg1 : FVec F S100000x128 .f32) (main_arg2 : FVec F S100000x1 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  main_v13
-- ==== Kernel.lean ====
abbrev S100000x128 : Shape := ⟨2, ![100000, 128]⟩
abbrev S100000x1 : Shape := ⟨2, ![100000, 1]⟩
abbrev S1600000 : Shape := ⟨1, ![1600000]⟩
abbrev S2000x128 : Shape := ⟨2, ![2000, 128]⟩
abbrev S2000x1 : Shape := ⟨2, ![2000, 1]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x256 : Shape := ⟨2, ![100000, 256]⟩
abbrev S2000x256 : Shape := ⟨2, ![2000, 256]⟩
abbrev S2000 : Shape := ⟨1, ![2000]⟩

abbrev nBuf : Space → Nat
  | .hbm => 33
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x256, .f32⟩
  | .local _ .vmem, ⟨17, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  concatenates_S2000x128_S2000x128_S2000x256_d1 : Shape.Concatenates [S2000x128, S2000x128] S2000x256 1
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  gather_S100000x128_S1600000x1_S1600000x128_1_0_n_n_0_1_1128_wf : GatherDims.WF S100000x128 S1600000x1 S1600000x128 [1] [0] [] [0] [] 1 ![1, 128]
  scatter_S100000_S1600000x1_S1600000_n_0_0_1_wf : ScatterDims.WF S100000 S1600000x1 S1600000 [] [0] [0] 1
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_1) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x256 : Shape := ⟨2, ![100000, 256]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x1, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x256, .f32⟩
  | .hbm, ⟨33, _⟩ => ⟨S100000x256, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S100000x1, .f32⟩
  | .hbm, ⟨38, _⟩ => ⟨S_, .f32⟩
  | .hbm, ⟨39, _⟩ => ⟨S100000x1, .f32⟩
  | .hbm, ⟨40, _⟩ => ⟨S100000x1, .f32⟩
  | .hbm, ⟨41, _⟩ => ⟨S100000x256, .f32⟩
  | .hbm, ⟨42, _⟩ => ⟨S100000x256, .f32⟩
  | .hbm, ⟨43, _⟩ => ⟨S100000x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  gather_S100000x128_S1600000x1_S1600000x128_1_0_n_n_0_1_1128_wf : GatherDims.WF S100000x128 S1600000x1 S1600000x128 [1] [0] [] [0] [] 1 ![1, 128]
  scatter_S100000_S1600000x1_S1600000_n_0_0_1_wf : ScatterDims.WF S100000 S1600000x1 S1600000 [] [0] [0] 1
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RunAll.lean ====
/-
  The kernel program's run with EVERY array named.

  The program is three segments: the first grid, the host operations between the grids, the second grid.  The contents of
  every unscoped buffer at each segment boundary are a fold from the launch memory; after the last segment they are the
  last boundary's contents.  The frame theorem keeps of this only that the argument arrays are unchanged; here the same
  launch is read for every buffer, so that the result arrays can be read too.
-/
import proofs.«170883_j44470091382964_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the contents
    the last segment boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Whole

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.RowNorm.lean ====
/-
  The mathematics of one output row, with no program in sight.

  A row of the bundle is the 256 numbers [u_0 … u_127 | v_0 … v_127] (`joined`): columns below 128 come from the first
  matrix, the others from the second, shifted by 128.  Its normalized form divides every entry by the larger of the row's
  Euclidean length sqrt(sum_j row_j^2) and a floor eps (`normalized`).  Both programs compute exactly this, on the
  extended reals, with the sum, the square root, the maximum and the quotient all the exact ones; no algebraic law is
  needed to join them, only that the two texts read the same row.
-/
import Idealize.ShloMosaic.PureOps.Ideal
import Idealize.ShloMosaic.Lib.ValueIdx

noncomputable section

namespace Cert.RowNorm

open Idealize.ShloMosaic Idealize.ShloMosaic.ValueIdx

/-- Row `p` of the matrix [u | v] whose halves have 128 columns each. -/
def joined {n : ℕ} (u v : (⟨2, ![n, 128]⟩ : Shape).Idx → EReal) (p : Fin n) (k : Fin 256) : EReal :=
  if h : k.val < 128 then u (ix2 p (⟨k.val, h⟩ : Fin 128)) else v (ix2 p (⟨k.val - 128, by omega⟩ : Fin 128))

/-- Entry `k` of a row divided by the larger of the row's Euclidean length and the floor `eps`. -/
def normalized (row : Fin 256 → EReal) (eps : EReal) (k : Fin 256) : EReal :=
  Ideal.div (row k) (max (Ideal.sqrt (∑ j : Fin 256, row j * row j)) eps)

end Cert.RowNorm

end
-- ==== Proof.Payloads.lean ====
/-
  What each kernel body stores, read at one entry of its block, on the extended reals.

  * the pre-scale body stores  x(p,q) * s(p)                      (s the block of the per-row scale, one column);
  * the combine body stores, into its first output,  h(p,q) + c(p,q) * s(p)
    and, into its second, entry k of row p of [b | c] divided by the larger of that row's Euclidean length and the
    floor (the f32 word 0x2B8CBCCC, about 1e-12; it is never evaluated: both programs carry the same word).
  The row sum is the lane reduction read as a finite sum over the 256 columns; the kept-dimension cast and the two
  column broadcasts read their operand at column 0.
-/
import proofs.«170883_j44470091382964_1_alg».proof.Proof.Gen.KernelIdeal.Skeleton
import proofs.«170883_j44470091382964_1_alg».proof.Proof.LibKeepdims
import proofs.«170883_j44470091382964_1_alg».proof.Proof.LibConcatPair
import proofs.«170883_j44470091382964_1_alg».proof.Proof.RowNorm
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx Cert.RowNorm

/-- The pre-scale body at (p, q): the entry times its row's scale. -/
theorem prescale_at (x0 : Vec Ideal S2000x128 .f32) (x1 : Vec Ideal S2000x1 .f32) (p : Fin 2000) (q : Fin 128) :
    k0_pay1 (F := Ideal) x0 x1 (ix2 p q) = x0 (ix2 p q) * x1 (ix2 p (0 : Fin 1)) := by
  unfold k0_pay1
  rw [mulf_apply, Cert.LibKeepdims.broadcastTo_a1_ab_apply]

/-- The residual output at (p, q): h + c * scale of the row. -/
theorem residual_at (x1 : Vec Ideal S2000x128 .f32) (x2 : Vec Ideal S2000x1 .f32) (x3 : Vec Ideal S2000x128 .f32)
    (p : Fin 2000) (q : Fin 128) :
    k1_pay3 (F := Ideal) x1 x2 x3 (ix2 p q) = x3 (ix2 p q) + x1 (ix2 p q) * x2 (ix2 p (0 : Fin 1)) := by
  unfold k1_pay3 k1_pay1
  rw [addf_apply, mulf_apply, Cert.LibKeepdims.broadcastTo_a1_ab_apply, shapeCast_self]

/-- The concatenated block at (p, k) is row p of [x0 | x1] at k. -/
theorem bundle_at (x0 x1 : Vec Ideal S2000x128 .f32) (p : Fin 2000) (k : Fin 256) :
    concatenate S2000x256 1 [⟨S2000x128, x0⟩, ⟨S2000x128, x1⟩] Facts₀.concatenates_S2000x128_S2000x128_S2000x256_d1 (ix2 p k)
      = joined x0 x1 p k := by
  unfold joined
  split
  · next h => exact Idealize.ShloMosaic.ConcatPair.cols_left x0 x1 _ p k ⟨k.val, h⟩ rfl
  · next h => exact Idealize.ShloMosaic.ConcatPair.cols_right x0 x1 _ p k ⟨k.val - 128, by omega⟩ (by show k.val - 128 + 128 = k.val; omega)

/-- The reduced index `p` with column `k` put back is (p, k). -/
theorem lift_row (h : S2000x256.Reduces [1] S2000) (p : Fin 2000) (k : Fin (S2000x256.size 1)) :
    h.lift (ix1 p) k = ix2 p (⟨k.val, k.isLt⟩ : Fin 256) := by
  funext c; apply Fin.ext
  fin_cases c <;> rfl

/-- The normalized output at (p, k). -/
theorem normalize_at (x0 x1 : Vec Ideal S2000x128 .f32) (p : Fin 2000) (k : Fin 256) :
    k1_pay2 (F := Ideal) x0 x1 (ix2 p k)
      = normalized (joined x0 x1 p) (Ideal.ofBits .f32 0x2B8CBCCC#32) k := by
  unfold k1_pay2 k1_pay1
  rw [shapeCast_self]
  rw [divf_apply, Cert.LibKeepdims.broadcastTo_a1_ab_apply, maximumf_apply, bundle_at]
  unfold normalized
  refine congrArg (fun z => Ideal.div (joined x0 x1 p k) (max z _)) ?_
  show Ideal.sqrt (shapeCast S2000x1 _ _ (ix2 p (0 : Fin 1))) = _
  rw [Cert.LibKeepdims.shapeCast_a_a1_apply]
  refine congrArg Ideal.sqrt ?_
  refine (Ideal.multiReduction_add_single _ 0x00000000#32 _ _ _ (ix1 p)).trans ?_
  refine Finset.sum_congr rfl fun j _ => ?_
  rw [lift_row, mulf_apply, bundle_at]
  rfl

end Cert.KernelIdeal.Payloads

end
-- ==== Proof.RefRows.lean ====
/-
  The reference's two results read at one entry, with the aggregated neighbour features `c` (the gather, the two
  segment sums and their quotient) kept as ONE array that is never opened.

  * h_out(r, q) = h(r, q) + c(r, q) * norm(r);
  * b_out(r, k) = entry k of row r of [b | c], over the larger of that row's Euclidean length and the floor.
  The reference's sum over a row starts from the constant zero; adding zero changes nothing on the extended reals.
-/
import proofs.«170883_j44470091382964_1_alg».proof.Proof.Gen.ReferenceIdeal.Read
import proofs.«170883_j44470091382964_1_alg».proof.Proof.LibConcatPair
import proofs.«170883_j44470091382964_1_alg».proof.Proof.RowNorm
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx Cert.RowNorm

/-- The column of a [100000, 1] array that a broadcast along the columns reads at (r, q): (r, 0). -/
theorem col0_128 (r : Fin 100000) (q : Fin 128) : idx_main_v30 (ix2 r q) = ix2 r (0 : Fin 1) :=
  funext fun a => Fin.ext (by match a with | ⟨0, _⟩ => rfl | ⟨1, _⟩ => rfl)

theorem col0_128' (r : Fin 100000) (q : Fin 128) : idx_main_v0 (ix2 r q) = ix2 r (0 : Fin 1) :=
  funext fun a => Fin.ext (by match a with | ⟨0, _⟩ => rfl | ⟨1, _⟩ => rfl)

theorem col0_256 (r : Fin 100000) (k : Fin 256) : idx_main_v28 (ix2 r k) = ix2 r (0 : Fin 1) :=
  funext fun a => Fin.ext (by match a with | ⟨0, _⟩ => rfl | ⟨1, _⟩ => rfl)

theorem row_of_col (r : Fin 100000) : idx_main_v24 (ix2 r (0 : Fin 1)) = ix1 r :=
  funext fun a => Fin.ext (by match a with | ⟨0, _⟩ => rfl)

theorem row_entry (r : Fin 100000) (j : Fin 256) : idx_main_v23 (ix1 r) j = ix2 r j :=
  funext fun a => Fin.ext (by match a with | ⟨0, _⟩ => rfl | ⟨1, _⟩ => rfl)

variable (x0 x1 : (⟨S100000x128, .f32⟩ : BufTy).Contents (Elt Ideal)) (x2 : (⟨S100000x1, .f32⟩ : BufTy).Contents (Elt Ideal))
  (x3 x4 : (⟨S1600000, .i32⟩ : BufTy).Contents (Elt Ideal))

/-- The pre-scaled features at (r, q). -/
theorem prescaled_at (r : Fin 100000) (q : Fin 128) :
    val_main_v1 (F := Ideal) x0 x2 (ix2 r q) = x0 (ix2 r q) * x2 (ix2 r (0 : Fin 1)) := by
  rw [val_main_v1_apply, val_main_v0_apply, col0_128']
  rfl

/-- The first result at (r, q). -/
theorem residual_at (r : Fin 100000) (q : Fin 128) :
    val_main_v32 (F := Ideal) x0 x2 x3 x4 (ix2 r q)
      = x0 (ix2 r q) + val_main_v20 (F := Ideal) x0 x2 x3 x4 (ix2 r q) * x2 (ix2 r (0 : Fin 1)) := by
  rw [val_main_v32_apply, val_main_v31_apply, val_main_v30_apply, col0_128]
  rfl

/-- The bundle [b | c] at (r, k). -/
theorem bundle_at (r : Fin 100000) (k : Fin 256) :
    val_main_v21 (F := Ideal) x0 x1 x2 x3 x4 (ix2 r k) = joined x1 (val_main_v20 (F := Ideal) x0 x2 x3 x4) r k := by
  unfold val_main_v21 joined
  split
  · next h => exact Idealize.ShloMosaic.ConcatPair.cols_left x1 _ _ r k ⟨k.val, h⟩ rfl
  · next h => exact Idealize.ShloMosaic.ConcatPair.cols_right x1 _ _ r k ⟨k.val - 128, by omega⟩ (by show k.val - 128 + 128 = k.val; omega)

/-- The second result at (r, k). -/
theorem normalize_at (r : Fin 100000) (k : Fin 256) :
    val_main_v29 (F := Ideal) x0 x1 x2 x3 x4 (ix2 r k)
      = normalized (joined x1 (val_main_v20 (F := Ideal) x0 x2 x3 x4) r) (Ideal.ofBits .f32 0x2B8CBCCC#32) k := by
  have hsum : (val_main_cst_4 (F := Ideal)) (Shape.Idx.first Facts₀.h_S_) + ∑ j : Fin 256, (val_main_v22 (F := Ideal) x0 x1 x2 x3 x4) (idx_main_v23 (ix1 r) j)
      = ∑ j : Fin 256, joined x1 (val_main_v20 (F := Ideal) x0 x2 x3 x4) r j * joined x1 (val_main_v20 (F := Ideal) x0 x2 x3 x4) r j := by
    rw [val_main_cst_4_apply]
    show Ideal.ofBits .f32 0x00000000#32 + _ = _
    rw [Ideal.ofBits_zero_f32, zero_add]
    refine Finset.sum_congr rfl fun j _ => ?_
    rw [row_entry, val_main_v22_apply, bundle_at]
    rfl
  rw [val_main_v29_apply, val_main_v28_apply, col0_256, val_main_v27_apply, val_main_v25_apply, val_main_v24_apply,
    row_of_col, val_main_v23_apply, hsum, val_main_v26_apply, val_main_cst_5_apply, bundle_at]
  rfl

end Cert.ReferenceIdeal.Rows

end
-- ==== Proof.Blocks.lean ====
/-
  What each of the two grids leaves in its output arrays, as whole arrays.

  Both grids walk the 100000 rows in 50 tiles of 2000 rows; every window of either call sits at tile row t, tile column 0,
  so entry (p, q) of a tile at point t is entry (2000 t + p, q) of its array, and the 50 tiles cover the array.
  Tile by tile the stored values are the entries of ONE whole-array function:
    first grid:   h * norm                                   (the reference's pre-scaled features);
    second grid:  h + c * norm   and   the normalized rows of [b | c]   (the reference's two results),
  where c is whatever array the second grid finds in its second operand — here assumed to be the reference's aggregated
  features, which is what the host operations between the two grids leave there.
-/
import proofs.«170883_j44470091382964_1_alg».proof.Proof.Gen.KernelIdeal.Frame
import proofs.«170883_j44470091382964_1_alg».proof.Proof.Payloads
import proofs.«170883_j44470091382964_1_alg».proof.Proof.RefRows
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read (val_main_v1 val_main_v20 val_main_v29 val_main_v32)

variable (V : (c : Dev nD) → (b : Ref sig .tc) → Buf (Elt Ideal) ((c : Thread nD τ).loc b))

theorem hz : (![0, 0] : Fin 2 → Nat) = fun _ => 0 := funext fun a => by fin_cases a <;> rfl

/-! ## The first grid -/

/-- Every window of the first call is at tile row t, tile column 0. -/
theorem tiles0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem read0_0 (A : S100000x128.Idx → Elt Ideal .f32) (t : Fin cfg0.N) (x : S2000x128.Idx) (k : S100000x128.Idx)
    (hk0 : (k 0).val = 2000 * t.val + (x 0).val) (hk1 : (k 1).val = (x 1).val) :
    ((cfg0.win 0).blk t).view.read (Elt Ideal) A x = A k := by
  obtain ⟨⟨e0, e1⟩, -, -⟩ := tiles0 t
  rw [View.read_apply]
  refine congrArg A ?_
  funext a; apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

theorem read0_1 (A : S100000x1.Idx → Elt Ideal .f32) (t : Fin cfg0.N) (x : S2000x1.Idx) (k : S100000x1.Idx)
    (hk0 : (k 0).val = 2000 * t.val + (x 0).val) (hk1 : (k 1).val = (x 1).val) :
    ((cfg0.win 1).blk t).view.read (Elt Ideal) A x = A k := by
  obtain ⟨-, ⟨e0, e1⟩, -⟩ := tiles0 t
  rw [View.read_apply]
  refine congrArg A ?_
  funext a; apply Fin.ext
  match a with
  | ⟨0, _⟩ => show win0_1.index t (0 : Fin 2) * 2000 + 1 * (x 0).val = (k 0).val; rw [e0, hk0]; omega
  | ⟨1, _⟩ => show win0_1.index t (1 : Fin 2) * 1 + 1 * (x 1).val = (k 1).val; rw [e1, hk1]; omega

theorem read0_2 (A : S100000x128.Idx → Elt Ideal .f32) (t : Fin cfg0.N) (x : S2000x128.Idx) (k : S100000x128.Idx)
    (hk0 : (k 0).val = 2000 * t.val + (x 0).val) (hk1 : (k 1).val = (x 1).val) :
    ((cfg0.win 2).blk t).view.read (Elt Ideal) A x = A k := by
  obtain ⟨-, -, ⟨e0, e1⟩⟩ := tiles0 t
  rw [View.read_apply]
  refine congrArg A ?_
  funext a; apply Fin.ext
  match a with
  | ⟨0, _⟩ => show win0_2.index t (0 : Fin 2) * 2000 + 1 * (x 0).val = (k 0).val; rw [e0, hk0]; omega
  | ⟨1, _⟩ => show win0_2.index t (1 : Fin 2) * 128 + 1 * (x 1).val = (k 1).val; rw [e1, hk1]; omega

/-- What point t of the first grid writes back is tile t of h * norm. -/
theorem flushed0 (c : Dev nD) (t : Fin cfg0.N) :
    (dat0 V c).flushed 2 t = ((cfg0.win 2).blk t).view.read (Elt Ideal)
      (val_main_v1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S2000x1) hz]
  have ht : t.val < 50 := by have := t.isLt; have hN : cfg0.N = 50 := N_0; omega
  funext j
  obtain ⟨p, q, rfl⟩ : ∃ (p : Fin 2000) (q : Fin 128), j = ix2 p q := ⟨j 0, j 1, eq_ix2 j⟩
  have hr : 2000 * t.val + p.val < 100000 := by have := p.isLt; omega
  refine (Cert.KernelIdeal.Payloads.prescale_at _ _ p q).trans ?_
  refine Eq.trans ?_ (read0_2 _ t (ix2 p q) (ix2 (⟨2000 * t.val + p.val, hr⟩ : Fin 100000) q) rfl rfl).symm
  refine Eq.trans ?_ (Cert.ReferenceIdeal.Rows.prescaled_at _ _ _ q).symm
  unfold iblk0
  rw [read0_0 _ t (ix2 p q) (ix2 (⟨2000 * t.val + p.val, hr⟩ : Fin 100000) q) rfl rfl,
    read0_1 _ t (ix2 p (0 : Fin 1)) (ix2 (⟨2000 * t.val + p.val, hr⟩ : Fin 100000) (0 : Fin 1)) rfl rfl]

/-- The 50 tiles of the first call's output cover it. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, ⟨e0, e1⟩⟩ := tiles0 ⟨(i 0).val / 2000, hlt⟩
  refine ⟨⟨(i 0).val / 2000, hlt⟩, flush0_2 _, ?_⟩
  show i ∈ ((View.whole main_v0).slice (win0_2.rect ⟨(i 0).val / 2000, hlt⟩)).set
  rw [View.set_slice_whole, Rect.mem_set_unit]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e1]; omega

/-- After the first grid its output array holds h * norm. -/
theorem final0 (c : Dev nD) :
    (dat0 V c).arrAt 2 cfg0.N = val_main_v1 (F := Ideal) (V c main_arg0) (V c main_arg2) :=
  (dat0 V c).arrAt_eq_of_cover 2 _ (fun t _ => flushed0 V c t) cover0

/-! ## The second grid -/

/-- Every window of the second call is at tile row t, tile column 0. -/
theorem tiles1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0) :=
  (by decide +kernel : ∀ t : Fin grid1.N, _)

theorem read1_0 (A : S100000x128.Idx → Elt Ideal .f32) (t : Fin cfg1.N) (x : S2000x128.Idx) (k : S100000x128.Idx)
    (hk0 : (k 0).val = 2000 * t.val + (x 0).val) (hk1 : (k 1).val = (x 1).val) :
    ((cfg1.win 0).blk t).view.read (Elt Ideal) A x = A k := by
  obtain ⟨e0, e1⟩ := (tiles1 t).1
  rw [View.read_apply]
  refine congrArg A ?_
  funext a; apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

theorem read1_1 (A : S100000x128.Idx → Elt Ideal .f32) (t : Fin cfg1.N) (x : S2000x128.Idx) (k : S100000x128.Idx)
    (hk0 : (k 0).val = 2000 * t.val + (x 0).val) (hk1 : (k 1).val = (x 1).val) :
    ((cfg1.win 1).blk t).view.read (Elt Ideal) A x = A k := by
  obtain ⟨e0, e1⟩ := (tiles1 t).2.1
  rw [View.read_apply]
  refine congrArg A ?_
  funext a; apply Fin.ext
  match a with
  | ⟨0, _⟩ => show win1_1.index t (0 : Fin 2) * 2000 + 1 * (x 0).val = (k 0).val; rw [e0, hk0]; omega
  | ⟨1, _⟩ => show win1_1.index t (1 : Fin 2) * 128 + 1 * (x 1).val = (k 1).val; rw [e1, hk1]; omega

theorem read1_2 (A : S100000x1.Idx → Elt Ideal .f32) (t : Fin cfg1.N) (x : S2000x1.Idx) (k : S100000x1.Idx)
    (hk0 : (k 0).val = 2000 * t.val + (x 0).val) (hk1 : (k 1).val = (x 1).val) :
    ((cfg1.win 2).blk t).view.read (Elt Ideal) A x = A k := by
  obtain ⟨e0, e1⟩ := (tiles1 t).2.2.1
  rw [View.read_apply]
  refine congrArg A ?_
  funext a; apply Fin.ext
  match a with
  | ⟨0, _⟩ => show win1_2.index t (0 : Fin 2) * 2000 + 1 * (x 0).val = (k 0).val; rw [e0, hk0]; omega
  | ⟨1, _⟩ => show win1_2.index t (1 : Fin 2) * 1 + 1 * (x 1).val = (k 1).val; rw [e1, hk1]; omega

theorem read1_3 (A : S100000x128.Idx → Elt Ideal .f32) (t : Fin cfg1.N) (x : S2000x128.Idx) (k : S100000x128.Idx)
    (hk0 : (k 0).val = 2000 * t.val + (x 0).val) (hk1 : (k 1).val = (x 1).val) :
    ((cfg1.win 3).blk t).view.read (Elt Ideal) A x = A k := by
  obtain ⟨e0, e1⟩ := (tiles1 t).2.2.2.1
  rw [View.read_apply]
  refine congrArg A ?_
  funext a; apply Fin.ext
  match a with
  | ⟨0, _⟩ => show win1_3.index t (0 : Fin 2) * 2000 + 1 * (x 0).val = (k 0).val; rw [e0, hk0]; omega
  | ⟨1, _⟩ => show win1_3.index t (1 : Fin 2) * 128 + 1 * (x 1).val = (k 1).val; rw [e1, hk1]; omega

theorem read1_4 (A : S100000x128.Idx → Elt Ideal .f32) (t : Fin cfg1.N) (x : S2000x128.Idx) (k : S100000x128.Idx)
    (hk0 : (k 0).val = 2000 * t.val + (x 0).val) (hk1 : (k 1).val = (x 1).val) :
    ((cfg1.win 4).blk t).view.read (Elt Ideal) A x = A k := by
  obtain ⟨e0, e1⟩ := (tiles1 t).2.2.2.2.1
  rw [View.read_apply]
  refine congrArg A ?_
  funext a; apply Fin.ext
  match a with
  | ⟨0, _⟩ => show win1_4.index t (0 : Fin 2) * 2000 + 1 * (x 0).val = (k 0).val; rw [e0, hk0]; omega
  | ⟨1, _⟩ => show win1_4.index t (1 : Fin 2) * 128 + 1 * (x 1).val = (k 1).val; rw [e1, hk1]; omega

theorem read1_5 (A : S100000x256.Idx → Elt Ideal .f32) (t : Fin cfg1.N) (x : S2000x256.Idx) (k : S100000x256.Idx)
    (hk0 : (k 0).val = 2000 * t.val + (x 0).val) (hk1 : (k 1).val = (x 1).val) :
    ((cfg1.win 5).blk t).view.read (Elt Ideal) A x = A k := by
  obtain ⟨e0, e1⟩ := (tiles1 t).2.2.2.2.2
  rw [View.read_apply]
  refine congrArg A ?_
  funext a; apply Fin.ext
  match a with
  | ⟨0, _⟩ => show win1_5.index t (0 : Fin 2) * 2000 + 1 * (x 0).val = (k 0).val; rw [e0, hk0]; omega
  | ⟨1, _⟩ => show win1_5.index t (1 : Fin 2) * 256 + 1 * (x 1).val = (k 1).val; rw [e1, hk1]; omega

section
variable (x3 x4 : S1600000.Idx → BitVec 32) (c : Dev nD)
  (hC : V c main_v19 = val_main_v20 (F := Ideal) (V c main_arg0) (V c main_arg2) x3 x4)
include hC

/-- What point t of the second grid writes back into its first output is tile t of h + c * norm. -/
theorem flushed1_4 (t : Fin cfg1.N) :
    (dat1 V c).flushed 4 t = ((cfg1.win 4).blk t).view.read (Elt Ideal)
      (val_main_v32 (F := Ideal) (V c main_arg0) (V c main_arg2) x3 x4) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz]
  have ht : t.val < 50 := by have := t.isLt; have hN : cfg1.N = 50 := N_1; omega
  funext j
  obtain ⟨p, q, rfl⟩ : ∃ (p : Fin 2000) (q : Fin 128), j = ix2 p q := ⟨j 0, j 1, eq_ix2 j⟩
  have hr : 2000 * t.val + p.val < 100000 := by have := p.isLt; omega
  refine (Cert.KernelIdeal.Payloads.residual_at _ _ _ p q).trans ?_
  refine Eq.trans ?_ (read1_4 _ t (ix2 p q) (ix2 (⟨2000 * t.val + p.val, hr⟩ : Fin 100000) q) rfl rfl).symm
  refine Eq.trans ?_ (Cert.ReferenceIdeal.Rows.residual_at _ _ _ _ _ q).symm
  unfold iblk1
  rw [read1_3 _ t (ix2 p q) (ix2 (⟨2000 * t.val + p.val, hr⟩ : Fin 100000) q) rfl rfl,
    read1_1 _ t (ix2 p q) (ix2 (⟨2000 * t.val + p.val, hr⟩ : Fin 100000) q) rfl rfl,
    read1_2 _ t (ix2 p (0 : Fin 1)) (ix2 (⟨2000 * t.val + p.val, hr⟩ : Fin 100000) (0 : Fin 1)) rfl rfl]
  rw [← hC]

/-- Row p of the tile pair [b | c] at point t is row 2000 t + p of the whole pair. -/
theorem tile_row (t : Fin cfg1.N) (p : Fin 2000) (r : Fin 100000) (hr : r.val = 2000 * t.val + p.val) :
    Cert.RowNorm.joined (iblk1 V c 0 t) (iblk1 V c 1 t) p
      = Cert.RowNorm.joined (V c main_arg1) (val_main_v20 (F := Ideal) (V c main_arg0) (V c main_arg2) x3 x4) r := by
  funext k
  unfold Cert.RowNorm.joined iblk1
  rw [← hC]
  split
  · next h => exact read1_0 _ t _ (ix2 r (⟨k.val, h⟩ : Fin 128)) hr rfl
  · next h => exact read1_1 _ t _ (ix2 r (⟨k.val - 128, by omega⟩ : Fin 128)) hr rfl

/-- What point t of the second grid writes back into its second output is tile t of the normalized rows of [b | c]. -/
theorem flushed1_5 (t : Fin cfg1.N) :
    (dat1 V c).flushed 5 t = ((cfg1.win 5).blk t).view.read (Elt Ideal)
      (val_main_v29 (F := Ideal) (V c main_arg0) (V c main_arg1) (V c main_arg2) x3 x4) := by
  show (cfg1.win 5).cut (grid1.coords t) ((dat1 V c).after 5 t) = _
  rw [after1_5]
  unfold out1_5
  rw [View.canon_unit_zero hz]
  simp only [View.ld_unit_zero (S := S2000x128) hz]
  have ht : t.val < 50 := by have := t.isLt; have hN : cfg1.N = 50 := N_1; omega
  funext j
  obtain ⟨p, k, rfl⟩ : ∃ (p : Fin 2000) (k : Fin 256), j = ix2 p k := ⟨j 0, j 1, eq_ix2 j⟩
  have hr : 2000 * t.val + p.val < 100000 := by have := p.isLt; omega
  refine (Cert.KernelIdeal.Payloads.normalize_at _ _ p k).trans ?_
  refine Eq.trans ?_ (read1_5 _ t (ix2 p k) (ix2 (⟨2000 * t.val + p.val, hr⟩ : Fin 100000) k) rfl rfl).symm
  refine Eq.trans ?_ (Cert.ReferenceIdeal.Rows.normalize_at _ _ _ _ _ _ k).symm
  exact congrArg (fun row => Cert.RowNorm.normalized row (Ideal.ofBits .f32 0x2B8CBCCC#32) k)
    (tile_row V x3 x4 c hC t p ⟨2000 * t.val + p.val, hr⟩ rfl)

end

/-- The 50 tiles of the second call's first output cover it. -/
theorem cover1_4 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨e0, e1⟩ := (tiles1 ⟨(i 0).val / 2000, hlt⟩).2.2.2.2.1
  refine ⟨⟨(i 0).val / 2000, hlt⟩, flush1_4 _, ?_⟩
  show i ∈ ((View.whole main_v20_0).slice (win1_4.rect ⟨(i 0).val / 2000, hlt⟩)).set
  rw [View.set_slice_whole, Rect.mem_set_unit]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hlt⟩ (1 : Fin 2) * 128 ≤ (i 1).val ∧ (i 1).val < win1_4.index ⟨(i 0).val / 2000, hlt⟩ (1 : Fin 2) * 128 + 128
    rw [e1]; omega

/-- The 50 tiles of the second call's second output cover it. -/
theorem cover1_5 (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 50 := N_1
  have hlt : (i 0).val / 2000 < cfg1.N := by rw [hN]; omega
  obtain ⟨e0, e1⟩ := (tiles1 ⟨(i 0).val / 2000, hlt⟩).2.2.2.2.2
  refine ⟨⟨(i 0).val / 2000, hlt⟩, flush1_5 _, ?_⟩
  show i ∈ ((View.whole main_v20_1).slice (win1_5.rect ⟨(i 0).val / 2000, hlt⟩)).set
  rw [View.set_slice_whole, Rect.mem_set_unit]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e1]; omega

/-- After the second grid its first output holds h + c * norm … -/
theorem final1_4 (x3 x4 : S1600000.Idx → BitVec 32) (c : Dev nD)
    (hC : V c main_v19 = val_main_v20 (F := Ideal) (V c main_arg0) (V c main_arg2) x3 x4) :
    (dat1 V c).arrAt 4 cfg1.N = val_main_v32 (F := Ideal) (V c main_arg0) (V c main_arg2) x3 x4 :=
  (dat1 V c).arrAt_eq_of_cover 4 _ (fun t _ => flushed1_4 V x3 x4 c hC t) cover1_4

/-- … and its second output the normalized rows of [b | c]. -/
theorem final1_5 (x3 x4 : S1600000.Idx → BitVec 32) (c : Dev nD)
    (hC : V c main_v19 = val_main_v20 (F := Ideal) (V c main_arg0) (V c main_arg2) x3 x4) :
    (dat1 V c).arrAt 5 cfg1.N = val_main_v29 (F := Ideal) (V c main_arg0) (V c main_arg1) (V c main_arg2) x3 x4 :=
  (dat1 V c).arrAt_eq_of_cover 5 _ (fun t _ => flushed1_5 V x3 x4 c hC t) cover1_5

end Cert.KernelIdeal.Blocks

end
-- ==== Proof.Between.lean ====
/-
  What the second grid finds in its operands.

  Between the two grids the host gathers rows of the first grid's output along the edge sources, sums them and the
  constant one into the edge targets' rows, and divides: the aggregated features c.  The reference applies the same
  operations, in the same order, to its own h * norm.  Since the first grid's output IS h * norm, the two arrays are one
  term; the gather and the segment sums are never opened.  The argument arrays are written by nothing on the way.
-/
import proofs.«170883_j44470091382964_1_alg».proof.Proof.Gen.KernelIdeal.Frame
import proofs.«170883_j44470091382964_1_alg».proof.Proof.Gen.ReferenceIdeal.Read
import proofs.«170883_j44470091382964_1_alg».proof.Proof.Blocks
import Idealize.ShloMosaic.Lib.StableHlo.Run

noncomputable section

namespace Cert.KernelIdeal.Between

open Cert.KernelIdeal Cert.KernelIdeal.Gen Idealize.ShloMosaic Idealize.ShloMosaic.TcCoe Idealize.SL.Sem Idealize.ShloMosaic.StableHlo
open Cert.ReferenceIdeal.Read (val_main_v1 val_main_v20)

variable (m : (ℓ : Loc nD τ sig) → Buf (Elt Ideal) ℓ) (ρ : Dev nD → PrngReg)

/-- After the first grid its output holds h * norm of the launch memory. -/
theorem prescaled (c : Dev nD) :
    W1 m ρ c (Proc.devRef .tc main_v0)
      = val_main_v1 (F := Ideal) (m ((c : Thread nD τ).loc main_arg0)) (m ((c : Thread nD τ).loc main_arg2)) :=
  (W1_arr m ρ c 2).trans (Cert.KernelIdeal.Blocks.final0 (V0 m ρ) c)

theorem src_kept (c : Dev nD) : W1 m ρ c (Proc.devRef .tc main_arg3) = m ((c : Thread nD τ).loc main_arg3) :=
  W1_of_ne m ρ c main_arg3 (by decide)

theorem dst_kept (c : Dev nD) : W1 m ρ c (Proc.devRef .tc main_arg4) = m ((c : Thread nD τ).loc main_arg4) :=
  W1_of_ne m ρ c main_arg4 (by decide)

set_option maxHeartbeats 2000000 in
set_option maxRecDepth 8192 in
/-- The second grid's second operand holds the reference's aggregated features. -/
theorem aggregated (c : Dev nD) :
    W2 m ρ c (Proc.devRef .tc main_v19)
      = val_main_v20 (F := Ideal) (m ((c : Thread nD τ).loc main_arg0)) (m ((c : Thread nD τ).loc main_arg2))
          (m ((c : Thread nD τ).loc main_arg3)) (m ((c : Thread nD τ).loc main_arg4)) := by
  show StableHlo.after hostOps1 (W1 m ρ c) (Proc.devRef .tc main_v19) = _
  after_results_simp
  rw [prescaled m ρ c, src_kept m ρ c, dst_kept m ρ c]
  rfl

set_option maxHeartbeats 2000000 in
set_option maxRecDepth 8192 in
theorem h_kept (c : Dev nD) : W2 m ρ c (Proc.devRef .tc main_arg0) = m ((c : Thread nD τ).loc main_arg0) := by
  show StableHlo.after hostOps1 (W1 m ρ c) (Proc.devRef .tc main_arg0) = _
  after_results_simp
  exact (W1_arr m ρ c 0).trans (((dat0 (V0 m ρ) c).arrAt_in 0 rfl _).trans (A_eq0 (V0 m ρ) c 0))

set_option maxHeartbeats 2000000 in
set_option maxRecDepth 8192 in
theorem b_kept (c : Dev nD) : W2 m ρ c (Proc.devRef .tc main_arg1) = m ((c : Thread nD τ).loc main_arg1) := by
  show StableHlo.after hostOps1 (W1 m ρ c) (Proc.devRef .tc main_arg1) = _
  after_results_simp
  exact W1_of_ne m ρ c main_arg1 (by decide)

set_option maxHeartbeats 2000000 in
set_option maxRecDepth 8192 in
theorem norm_kept (c : Dev nD) : W2 m ρ c (Proc.devRef .tc main_arg2) = m ((c : Thread nD τ).loc main_arg2) := by
  show StableHlo.after hostOps1 (W1 m ρ c) (Proc.devRef .tc main_arg2) = _
  after_results_simp
  exact (W1_arr m ρ c 1).trans (((dat0 (V0 m ρ) c).arrAt_in 1 rfl _).trans (A_eq0 (V0 m ρ) c 1))

end Cert.KernelIdeal.Between

end
-- ==== Proof.KernelRun.lean ====
/-
  The kernel program's two result arrays, as functions of the launch memory.

  Composing the pieces: the first grid leaves h * norm; the host operations between the grids turn it into the aggregated
  features c, the very array the reference computes; the second grid, finding c and the untouched arguments in its
  operands, leaves h + c * norm and the normalized rows of [b | c] — the reference's two results.
-/
import proofs.«170883_j44470091382964_1_alg».proof.Proof.RunAll
import proofs.«170883_j44470091382964_1_alg».proof.Proof.Between
import proofs.«170883_j44470091382964_1_alg».proof.Proof.Blocks

noncomputable section

namespace Cert.KernelIdeal.Whole

open Cert.KernelIdeal Cert.KernelIdeal.Gen Idealize.ShloMosaic Idealize.ShloMosaic.TcCoe Idealize.SL.Sem
open Cert.ReferenceIdeal.Read (val_main_v20 val_main_v29 val_main_v32)

variable (m : (ℓ : Loc nD τ sig) → Buf (Elt Ideal) ℓ) (ρ : Dev nD → PrngReg)

/-- The second grid finds the aggregated features of ITS OWN first and third operands' contents in its second operand. -/
theorem operand_c (c : Dev nD) :
    V2 m ρ c main_v19 = val_main_v20 (F := Ideal) (V2 m ρ c main_arg0) (V2 m ρ c main_arg2)
      (m ((c : Thread nD τ).loc main_arg3)) (m ((c : Thread nD τ).loc main_arg4)) := by
  rw [show V2 m ρ c main_arg0 = m ((c : Thread nD τ).loc main_arg0) from Cert.KernelIdeal.Between.h_kept m ρ c,
    show V2 m ρ c main_arg2 = m ((c : Thread nD τ).loc main_arg2) from Cert.KernelIdeal.Between.norm_kept m ρ c]
  exact Cert.KernelIdeal.Between.aggregated m ρ c

/-- The first result array after the run. -/
theorem h_out (c : Dev nD) :
    W3 m ρ c (Proc.devRef .tc main_v20_0)
      = val_main_v32 (F := Ideal) (m ((c : Thread nD τ).loc main_arg0)) (m ((c : Thread nD τ).loc main_arg2))
          (m ((c : Thread nD τ).loc main_arg3)) (m ((c : Thread nD τ).loc main_arg4)) := by
  refine (W3_arr m ρ c 4).trans ((Cert.KernelIdeal.Blocks.final1_4 (V2 m ρ) _ _ c (operand_c m ρ c)).trans ?_)
  rw [show V2 m ρ c main_arg0 = m ((c : Thread nD τ).loc main_arg0) from Cert.KernelIdeal.Between.h_kept m ρ c,
    show V2 m ρ c main_arg2 = m ((c : Thread nD τ).loc main_arg2) from Cert.KernelIdeal.Between.norm_kept m ρ c]

/-- The second result array after the run. -/
theorem b_out (c : Dev nD) :
    W3 m ρ c (Proc.devRef .tc main_v20_1)
      = val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W3_arr m ρ c 5).trans ((Cert.KernelIdeal.Blocks.final1_5 (V2 m ρ) _ _ c (operand_c m ρ c)).trans ?_)
  rw [show V2 m ρ c main_arg0 = m ((c : Thread nD τ).loc main_arg0) from Cert.KernelIdeal.Between.h_kept m ρ c,
    show V2 m ρ c main_arg1 = m ((c : Thread nD τ).loc main_arg1) from Cert.KernelIdeal.Between.b_kept m ρ c,
    show V2 m ρ c main_arg2 = m ((c : Thread nD τ).loc main_arg2) from Cert.KernelIdeal.Between.norm_kept m ρ c]

/-- Every weakly fair execution of the kernel program terminates with its two results at the reference's two stages of
    the launch memory, the arguments unchanged. -/
theorem run : θ_run defs (onTc (τ := τ) (main (F := Ideal))) ⟨m, fun _ => 0, ρ⟩ (fun r => ∀ c : Dev nD,
      r.2.mem ((c.tc : Thread nD τ).loc main_v20_0)
        = val_main_v32 (F := Ideal) (m ((c : Thread nD τ).loc main_arg0)) (m ((c : Thread nD τ).loc main_arg2))
            (m ((c : Thread nD τ).loc main_arg3)) (m ((c : Thread nD τ).loc main_arg4))
      ∧ r.2.mem ((c.tc : Thread nD τ).loc main_v20_1)
        = val_main_v29 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v20_0 (by decide))).trans (h_out m ρ c),
       (h c _ (mem_uc main_v20_1 (by decide))).trans (b_out m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)
    (run_all m ρ)

end Cert.KernelIdeal.Whole

end
-- ==== Proof.lean ====
/-
  One graph-convolution layer: a Pallas program against its jnp reference, equal on the extended reals.

  With N = 100000 nodes, D = 128 features and E = 1600000 edges, both programs compute
      hn   = h * norm                                   (each row scaled by its node's norm),
      c    = (sum over edges into a node of hn at the edge's source) / max(in-degree, 1),
      hout = h + c * norm,
      bout = rows of [b | c], each divided by the larger of its Euclidean length and a floor.
  The Pallas program computes hn in a first grid of 50 row tiles, c on the host (a gather and two segment sums, the very
  operations of the reference), and hout and bout in a second grid of 50 row tiles; the reference does everything on the
  host.  Every operation reads the same on both sides at the ideal instance — the kernels' product, sum, lane reduction,
  square root, maximum and quotient are the host's — so the two programs are the same function of the inputs, and no
  algebraic law (hence no finiteness of the inputs) is needed: only that tiles cover the arrays and that the gather and
  the segment sums, carried as one unopened array, receive the same operand.

  Modules: RowNorm (a row's normalization, no program), Payloads (what the kernel bodies store, at one entry), RefRows
  (the reference's results at one entry), Blocks (what each grid leaves, as whole arrays), Between (what the host
  operations between the grids leave), RunAll and KernelRun (the Pallas program's run with its results named).
-/
import proofs.«170883_j44470091382964_1_alg».proof.Defs
import proofs.«170883_j44470091382964_1_alg».proof.Proof.Gen.Kernel
import proofs.«170883_j44470091382964_1_alg».proof.Proof.Gen.Kernel.Skeleton
import proofs.«170883_j44470091382964_1_alg».proof.Proof.Gen.Kernel.Launch
import proofs.«170883_j44470091382964_1_alg».proof.Proof.Gen.Kernel.Points
import proofs.«170883_j44470091382964_1_alg».proof.Proof.Gen.Kernel.Frame
import proofs.«170883_j44470091382964_1_alg».proof.Proof.Gen.KernelIdeal
import proofs.«170883_j44470091382964_1_alg».proof.Proof.Gen.KernelIdeal.Skeleton
import proofs.«170883_j44470091382964_1_alg».proof.Proof.Gen.KernelIdeal.Launch
import proofs.«170883_j44470091382964_1_alg».proof.Proof.Gen.KernelIdeal.Points
import proofs.«170883_j44470091382964_1_alg».proof.Proof.Gen.KernelIdeal.Frame
import proofs.«170883_j44470091382964_1_alg».proof.Proof.Gen.ReferenceIdeal
import proofs.«170883_j44470091382964_1_alg».proof.Proof.Gen.Pre_finite_inputs
import proofs.«170883_j44470091382964_1_alg».proof.Proof.Gen.ReferenceIdeal.Run
import proofs.«170883_j44470091382964_1_alg».proof.Proof.Gen.ReferenceIdeal.Read
import proofs.«170883_j44470091382964_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with their results at the reference's two stages of the (agreeing) argument arrays. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨g0, g1, g2, g3, g4⟩ := hagree c
  refine ⟨(h c).1.trans ?_, (h c).2.1.trans ?_, (h c).2.2⟩
  · rw [g0, g2, g3, g4]
    exact Cert.ReferenceIdeal.Read.val_main_v32_eq _ _ _ _
  · rw [Cert.ReferenceIdeal.Read.val_main_v29_eq, g0, g1, g2, g3, g4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
